-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x512 : Shape := ⟨2, ![40000, 512]⟩
abbrev S2x640000 : Shape := ⟨2, ![2, 640000]⟩
abbrev S512x256 : Shape := ⟨2, ![512, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S40000x512 : S_.BroadcastsInDim S40000x512 (![] : Fin 0 → Fin S40000x512.rank)
  reducesTo_S40000x512_S_d0_1 : S40000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S40000x512 .f32) (main_arg1 : IVec S2x640000 32) (main_arg2 : FVec F S512x256 .f32) (main_arg3 : FVec F S256 .f32) (main_arg4 : FVec F S256x47 .f32) (main_arg5 : FVec F S47 .f32) : IVec S_ 1 :=
  let main_v0 : FVec F S40000x512 .f32 := Host.absf main_arg0
  let main_cst : FVec F S_ .f32 := constant S_ .f32 0x7F800000#32
  let main_v1 : FVec F S40000x512 .f32 := broadcastInDim S40000x512 ![] bcast_S_S40000x512 main_cst
  let main_v2 : IVec S40000x512 1 := cmpf .olt main_v0 main_v1
  let main_c : IVec S_ 1 := constantI S_ 1 1#1
  let main_v3 : IVec S_ 1 := (fun x v => Host.reduce IntOp.andi x v reducesTo_S40000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg4
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg5 main_v13 main_v16
-- ==== Kernel.lean ====
abbrev S40000x512 : Shape := ⟨2, ![40000, 512]⟩
abbrev S2x640000 : Shape := ⟨2, ![2, 640000]⟩
abbrev S512x256 : Shape := ⟨2, ![512, 256]⟩
abbrev S256 : Shape := ⟨1, ![256]⟩
abbrev S256x47 : Shape := ⟨2, ![256, 47]⟩
abbrev S47 : Shape := ⟨1, ![47]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x256 : Shape := ⟨2, ![40000, 256]⟩
abbrev S2000x512 : Shape := ⟨2, ![2000, 512]⟩
abbrev S2000x256 : Shape := ⟨2, ![2000, 256]⟩
abbrev S680000x256 : Shape := ⟨2, ![680000, 256]⟩
abbrev S1x256 : Shape := ⟨2, ![1, 256]⟩
abbrev S40000x47 : Shape := ⟨2, ![40000, 47]⟩
abbrev S2000x47 : Shape := ⟨2, ![2000, 47]⟩
abbrev S680000x47 : Shape := ⟨2, ![680000, 47]⟩
abbrev S1x47 : Shape := ⟨2, ![1, 47]⟩
abbrev S40000x1 : Shape := ⟨2, ![40000, 1]⟩

abbrev nBuf : Space → Nat
  | .hbm => 107
  | .vmem => 10
  | .smem => 0
  | _ => 0

abbrev bufTy : (tb : Table) → Fin (tcTables nBuf tb) → BufTy
  | .hbm, ⟨0, _⟩ => ⟨S40000x512, .f32⟩
  | .hbm, ⟨1, _⟩ => ⟨S2x640000, .i32⟩
  | .hbm, ⟨2, _⟩ => ⟨S512x256, .f32⟩
  | .hbm, ⟨3, _⟩ => ⟨S256, .f32⟩
  | .hbm, ⟨4, _⟩ => ⟨S256x47, .f32⟩
  | .hbm, ⟨5, _⟩ => ⟨S47, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000, .f32⟩
  | .hbm, ⟨26, _⟩ => ⟨S_, .f32⟩
  | .hbm, ⟨27, _⟩ => ⟨S_, .f32⟩
  | .hbm, ⟨28, _⟩ => ⟨S40000, .f32⟩
  | .hbm, ⟨29, _⟩ => ⟨S40000, .f32⟩
  | .hbm, ⟨30, _⟩ => ⟨S_, .i32⟩
  | .hbm, ⟨31, _⟩ => ⟨S680000, .i32⟩
  | .hbm, ⟨32, _⟩ => ⟨S680000, .i1⟩
  | .hbm, ⟨33, _⟩ => ⟨S_, .i32⟩
  | .hbm, ⟨34, _⟩ => ⟨S680000, .i32⟩
  | .hbm, ⟨35, _⟩ => ⟨S680000, .i32⟩
  | .hbm, ⟨36, _⟩ => ⟨S680000, .i32⟩
  | .hbm, ⟨37, _⟩ => ⟨S680000x1, .i32⟩
  | .hbm, ⟨38, _⟩ => ⟨S680000, .f32⟩
  | .hbm, ⟨39, _⟩ => ⟨S_, .i32⟩
  | .hbm, ⟨40, _⟩ => ⟨S680000, .i32⟩
  | .hbm, ⟨41, _⟩ => ⟨S680000, .i1⟩
  | .hbm, ⟨42, _⟩ => ⟨S_, .i32⟩
  | .hbm, ⟨43, _⟩ => ⟨S680000, .i32⟩
  | .hbm, ⟨44, _⟩ => ⟨S680000, .i32⟩
  | .hbm, ⟨45, _⟩ => ⟨S680000, .i32⟩
  | .hbm, ⟨46, _⟩ => ⟨S680000x1, .i32⟩
  | .hbm, ⟨47, _⟩ => ⟨S680000, .f32⟩
  | .hbm, ⟨48, _⟩ => ⟨S680000, .f32⟩
  | .hbm, ⟨49, _⟩ => ⟨S40000x256, .f32⟩
  | .hbm, ⟨50, _⟩ => ⟨S_, .i32⟩
  | .hbm, ⟨51, _⟩ => ⟨S680000, .i32⟩
  | .hbm, ⟨52, _⟩ => ⟨S680000, .i1⟩
  | .hbm, ⟨53, _⟩ => ⟨S_, .i32⟩
  | .hbm, ⟨54, _⟩ => ⟨S680000, .i32⟩
  | .hbm, ⟨55, _⟩ => ⟨S680000, .i32⟩
  | .hbm, ⟨56, _⟩ => ⟨S680000, .i32⟩
  | .hbm, ⟨57, _⟩ => ⟨S680000x1, .i32⟩
  | .hbm, ⟨58, _⟩ => ⟨S680000x256, .f32⟩
  | .hbm, ⟨59, _⟩ => ⟨S680000x1, .f32⟩
  | .hbm, ⟨60, _⟩ => ⟨S680000x256, .f32⟩
  | .hbm, ⟨61, _⟩ => ⟨S680000x256, .f32⟩
  | .hbm, ⟨62, _⟩ => ⟨S_, .f32⟩
  | .hbm, ⟨63, _⟩ => ⟨S40000x256, .f32⟩
  | .hbm, ⟨64, _⟩ => ⟨S680000x1, .i32⟩
  | .hbm, ⟨65, _⟩ => ⟨S40000x256, .f32⟩
  | .hbm, ⟨66, _⟩ => ⟨S1x256, .f32⟩
  | .hbm, ⟨67, _⟩ => ⟨S40000x256, .f32⟩
  | .hbm, ⟨68, _⟩ => ⟨S40000x256, .f32⟩
  | .hbm, ⟨69, _⟩ => ⟨S_, .f32⟩
  | .hbm, ⟨70, _⟩ => ⟨S40000x256, .f32⟩
  | .hbm, ⟨71, _⟩ => ⟨S40000x256, .f32⟩
  | .hbm, ⟨72, _⟩ => ⟨S40000x47, .f32⟩
  | .hbm, ⟨73, _⟩ => ⟨S_, .i32⟩
  | .hbm, ⟨74, _⟩ => ⟨S680000, .i32⟩
  | .hbm, ⟨75, _⟩ => ⟨S680000, .i1⟩
  | .hbm, ⟨76, _⟩ => ⟨S_, .i32⟩
  | .hbm, ⟨77, _⟩ => ⟨S680000, .i32⟩
  | .hbm, ⟨78, _⟩ => ⟨S680000, .i32⟩
  | .hbm, ⟨79, _⟩ => ⟨S680000, .i32⟩
  | .hbm, ⟨80, _⟩ => ⟨S680000x1, .i32⟩
  | .hbm, ⟨81, _⟩ => ⟨S680000x47, .f32⟩
  | .hbm, ⟨82, _⟩ => ⟨S680000x1, .f32⟩
  | .hbm, ⟨83, _⟩ => ⟨S680000x47, .f32⟩
  | .hbm, ⟨84, _⟩ => ⟨S680000x47, .f32⟩
  | .hbm, ⟨85, _⟩ => ⟨S_, .f32⟩
  | .hbm, ⟨86, _⟩ => ⟨S40000x47, .f32⟩
  | .hbm, ⟨87, _⟩ => ⟨S680000x1, .i32⟩
  | .hbm, ⟨88, _⟩ => ⟨S40000x47, .f32⟩
  | .hbm, ⟨89, _⟩ => ⟨S1x47, .f32⟩
  | .hbm, ⟨90, _⟩ => ⟨S40000x47, .f32⟩
  | .hbm, ⟨91, _⟩ => ⟨S40000x47, .f32⟩
  | .hbm, ⟨92, _⟩ => ⟨S_, .f32⟩
  | .hbm, ⟨93, _⟩ => ⟨S40000, .f32⟩
  | .hbm, ⟨94, _⟩ => ⟨S_, .f32⟩
  | .hbm, ⟨95, _⟩ => ⟨S40000, .f32⟩
  | .hbm, ⟨96, _⟩ => ⟨S40000, .f32⟩
  | .hbm, ⟨97, _⟩ => ⟨S40000x1, .f32⟩
  | .hbm, ⟨98, _⟩ => ⟨S40000x47, .f32⟩
  | .hbm, ⟨99, _⟩ => ⟨S40000x47, .f32⟩
  | .hbm, ⟨100, _⟩ => ⟨S40000x47, .f32⟩
  | .hbm, ⟨101, _⟩ => ⟨S_, .f32⟩
  | .hbm, ⟨102, _⟩ => ⟨S40000, .f32⟩
  | .hbm, ⟨103, _⟩ => ⟨S40000x1, .f32⟩
  | .hbm, ⟨104, _⟩ => ⟨S40000x1, .f32⟩
  | .hbm, ⟨105, _⟩ => ⟨S40000x47, .f32⟩
  | .hbm, ⟨106, _⟩ => ⟨S40000x47, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x47, .f32⟩
  | .local _ .vmem, ⟨8, _⟩ => ⟨S2000x47, .f32⟩
  | .local _ .vmem, ⟨9, _⟩ => ⟨S2000x47, .f32⟩
  | _, _ => ⟨S40000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x47 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  shapeCasts_S2000x256_S2000x256 : S2000x256.ShapeCasts S2000x256
  inb_S256x47_S256x47_0_0 : ∀ a, (![0, 0] : Fin 2 → Nat) a + S256x47.size a ≤ S256x47.size a
  h_S256x47 : 0 < S256x47.numel
  inb_S2000x47_S2000x47_0_0 : ∀ a, (![0, 0] : Fin 2 → Nat) a + S2000x47.size a ≤ S2000x47.size a
  h_S2000x47 : 0 < S2000x47.numel
  bcast_S680000x1_S680000x47_0_1 : S680000x1.BroadcastsInDim S680000x47 (![0, 1] : Fin 2 → Fin S680000x47.rank)
  bcast_S_S40000x47 : S_.BroadcastsInDim S40000x47 (![] : Fin 0 → Fin S40000x47.rank)
  bcast_S47_S1x47_1 : S47.BroadcastsInDim S1x47 (![1] : Fin 1 → Fin S1x47.rank)
  bcast_S1x47_S40000x47_0_1 : S1x47.BroadcastsInDim S40000x47 (![0, 1] : Fin 2 → Fin S40000x47.rank)
  reducesTo_S40000x47_S40000_d1 : S40000x47.ReducesTo [1] S40000
  h_S_ : 0 < S_.numel
  bcast_S40000_S40000x1_0 : S40000.BroadcastsInDim S40000x1 (![0] : Fin 1 → Fin S40000x1.rank)
  bcast_S40000x1_S40000x47_0_1 : S40000x1.BroadcastsInDim S40000x47 (![0, 1] : Fin 2 → Fin S40000x47.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S2000x512_S512x256_S2000x256_1_0_0_1_n_n_wf : DotDims.WF S2000x512 S512x256 S2000x256 [1] [0] [0] [1] [] []
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  dot_S2000x256_S256x47_S2000x47_1_0_0_1_n_n_wf : DotDims.WF S2000x256 S256x47 S2000x47 [1] [0] [0] [1] [] []
  gather_S40000x47_S680000x1_S680000x47_1_0_n_n_0_1_147_wf : GatherDims.WF S40000x47 S680000x1 S680000x47 [1] [0] [] [0] [] 1 ![1, 47]
  scatter_S40000x47_S680000x1_S680000x47_1_0_0_1_wf : ScatterDims.WF S40000x47 S680000x1 S680000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S40000x512.size a
  hwx0_0 : ∀ i : grid0.Coords, EltTy.bits .f32 = 32 ∨ (Rect.block (s := S40000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S40000x256.size a
  hwx0_2 : ∀ i : grid0.Coords, EltTy.bits .f32 = 32 ∨ (Rect.block (s := S40000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x47.size a ≤ S256x47.size a
  hwx1_1 : ∀ i : grid1.Coords, EltTy.bits .f32 = 32 ∨ (Rect.block (s := S256x47) S256x47.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x47.size a ≤ S40000x47.size a
  hwx1_2 : ∀ i : grid1.Coords, EltTy.bits .f32 = 32 ∨ (Rect.block (s := S40000x47) S2000x47.size (cc1_transform_2 i) (hinb1_2 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def dot_S2000x256_S256x47_S2000x47_1_0_0_1_n_n : DotDims S2000x256 S256x47 S2000x47 where
  lhsContracting := [1]
  rhsContracting := [0]
  lhsNonContracting := [0]
  rhsNonContracting := [1]
  lhsBatch := []
  rhsBatch := []
  wf := dot_S2000x256_S256x47_S2000x47_1_0_0_1_n_n_wf
def gather_S40000x47_S680000x1_S680000x47_1_0_n_n_0_1_147 : GatherDims S40000x47 S680000x1 S680000x47 where
  offsetDims := [1]
  collapsedSliceDims := [0]
  operandBatchingDims := []
  startIndicesBatchingDims := []
  startIndexMap := [0]
  indexVectorDim := 1
  sliceSizes := ![1, 47]
  wf := gather_S40000x47_S680000x1_S680000x47_1_0_n_n_0_1_147_wf
def scatter_S40000x47_S680000x1_S680000x47_1_0_0_1 : ScatterDims S40000x47 S680000x1 S680000x47 where
  updateWindowDims := [1]
  insertedWindowDims := [0]
  scatterDimsToOperandDims := [0]
  indexVectorDim := 1
  wf := scatter_S40000x47_S680000x1_S680000x47_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x47.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x47.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000x512 : Shape := ⟨2, ![40000, 512]⟩
abbrev S2x640000 : Shape := ⟨2, ![2, 640000]⟩
abbrev S512x256 : Shape := ⟨2, ![512, 256]⟩
abbrev S256 : Shape := ⟨1, ![256]⟩
abbrev S256x47 : Shape := ⟨2, ![256, 47]⟩
abbrev S47 : Shape := ⟨1, ![47]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x256 : Shape := ⟨2, ![40000, 256]⟩
abbrev S680000x256 : Shape := ⟨2, ![680000, 256]⟩
abbrev S1x256 : Shape := ⟨2, ![1, 256]⟩
abbrev S40000x47 : Shape := ⟨2, ![40000, 47]⟩
abbrev S680000x47 : Shape := ⟨2, ![680000, 47]⟩
abbrev S1x47 : Shape := ⟨2, ![1, 47]⟩
abbrev S40000x1 : Shape := ⟨2, ![40000, 1]⟩

abbrev nBuf : Space → Nat
  | .hbm => 126
  | .vmem => 0
  | .smem => 0
  | _ => 0

abbrev bufTy : (tb : Table) → Fin (tcTables nBuf tb) → BufTy
  | .hbm, ⟨0, _⟩ => ⟨S40000x512, .f32⟩
  | .hbm, ⟨1, _⟩ => ⟨S2x640000, .i32⟩
  | .hbm, ⟨2, _⟩ => ⟨S512x256, .f32⟩
  | .hbm, ⟨3, _⟩ => ⟨S256, .f32⟩
  | .hbm, ⟨4, _⟩ => ⟨S256x47, .f32⟩
  | .hbm, ⟨5, _⟩ => ⟨S47, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000, .f32⟩
  | .hbm, ⟨26, _⟩ => ⟨S_, .f32⟩
  | .hbm, ⟨27, _⟩ => ⟨S_, .f32⟩
  | .hbm, ⟨28, _⟩ => ⟨S40000, .f32⟩
  | .hbm, ⟨29, _⟩ => ⟨S40000, .f32⟩
  | .hbm, ⟨30, _⟩ => ⟨S40000x256, .f32⟩
  | .hbm, ⟨31, _⟩ => ⟨S_, .i32⟩
  | .hbm, ⟨32, _⟩ => ⟨S680000, .i32⟩
  | .hbm, ⟨33, _⟩ => ⟨S680000, .i1⟩
  | .hbm, ⟨34, _⟩ => ⟨S_, .i32⟩
  | .hbm, ⟨35, _⟩ => ⟨S680000, .i32⟩
  | .hbm, ⟨36, _⟩ => ⟨S680000, .i32⟩
  | .hbm, ⟨37, _⟩ => ⟨S680000, .i32⟩
  | .hbm, ⟨38, _⟩ => ⟨S680000x1, .i32⟩
  | .hbm, ⟨39, _⟩ => ⟨S680000, .f32⟩
  | .hbm, ⟨40, _⟩ => ⟨S_, .i32⟩
  | .hbm, ⟨41, _⟩ => ⟨S680000, .i32⟩
  | .hbm, ⟨42, _⟩ => ⟨S680000, .i1⟩
  | .hbm, ⟨43, _⟩ => ⟨S_, .i32⟩
  | .hbm, ⟨44, _⟩ => ⟨S680000, .i32⟩
  | .hbm, ⟨45, _⟩ => ⟨S680000, .i32⟩
  | .hbm, ⟨46, _⟩ => ⟨S680000, .i32⟩
  | .hbm, ⟨47, _⟩ => ⟨S680000x1, .i32⟩
  | .hbm, ⟨48, _⟩ => ⟨S680000, .f32⟩
  | .hbm, ⟨49, _⟩ => ⟨S680000, .f32⟩
  | .hbm, ⟨50, _⟩ => ⟨S_, .i32⟩
  | .hbm, ⟨51, _⟩ => ⟨S680000, .i32⟩
  | .hbm, ⟨52, _⟩ => ⟨S680000, .i1⟩
  | .hbm, ⟨53, _⟩ => ⟨S_, .i32⟩
  | .hbm, ⟨54, _⟩ => ⟨S680000, .i32⟩
  | .hbm, ⟨55, _⟩ => ⟨S680000, .i32⟩
  | .hbm, ⟨56, _⟩ => ⟨S680000, .i32⟩
  | .hbm, ⟨57, _⟩ => ⟨S680000x1, .i32⟩
  | .hbm, ⟨58, _⟩ => ⟨S680000x256, .f32⟩
  | .hbm, ⟨59, _⟩ => ⟨S680000x1, .f32⟩
  | .hbm, ⟨60, _⟩ => ⟨S680000x256, .f32⟩
  | .hbm, ⟨61, _⟩ => ⟨S680000x256, .f32⟩
  | .hbm, ⟨62, _⟩ => ⟨S_, .f32⟩
  | .hbm, ⟨63, _⟩ => ⟨S40000x256, .f32⟩
  | .hbm, ⟨64, _⟩ => ⟨S680000x1, .i32⟩
  | .hbm, ⟨65, _⟩ => ⟨S40000x256, .f32⟩
  | .hbm, ⟨66, _⟩ => ⟨S1x256, .f32⟩
  | .hbm, ⟨67, _⟩ => ⟨S40000x256, .f32⟩
  | .hbm, ⟨68, _⟩ => ⟨S40000x256, .f32⟩
  | .hbm, ⟨69, _⟩ => ⟨S_, .f32⟩
  | .hbm, ⟨70, _⟩ => ⟨S40000x256, .f32⟩
  | .hbm, ⟨71, _⟩ => ⟨S40000x256, .f32⟩
  | .hbm, ⟨72, _⟩ => ⟨S40000x47, .f32⟩
  | .hbm, ⟨73, _⟩ => ⟨S_, .i32⟩
  | .hbm, ⟨74, _⟩ => ⟨S680000, .i32⟩
  | .hbm, ⟨75, _⟩ => ⟨S680000, .i1⟩
  | .hbm, ⟨76, _⟩ => ⟨S_, .i32⟩
  | .hbm, ⟨77, _⟩ => ⟨S680000, .i32⟩
  | .hbm, ⟨78, _⟩ => ⟨S680000, .i32⟩
  | .hbm, ⟨79, _⟩ => ⟨S680000, .i32⟩
  | .hbm, ⟨80, _⟩ => ⟨S680000x1, .i32⟩
  | .hbm, ⟨81, _⟩ => ⟨S680000, .f32⟩
  | .hbm, ⟨82, _⟩ => ⟨S_, .i32⟩
  | .hbm, ⟨83, _⟩ => ⟨S680000, .i32⟩
  | .hbm, ⟨84, _⟩ => ⟨S680000, .i1⟩
  | .hbm, ⟨85, _⟩ => ⟨S_, .i32⟩
  | .hbm, ⟨86, _⟩ => ⟨S680000, .i32⟩
  | .hbm, ⟨87, _⟩ => ⟨S680000, .i32⟩
  | .hbm, ⟨88, _⟩ => ⟨S680000, .i32⟩
  | .hbm, ⟨89, _⟩ => ⟨S680000x1, .i32⟩
  | .hbm, ⟨90, _⟩ => ⟨S680000, .f32⟩
  | .hbm, ⟨91, _⟩ => ⟨S680000, .f32⟩
  | .hbm, ⟨92, _⟩ => ⟨S_, .i32⟩
  | .hbm, ⟨93, _⟩ => ⟨S680000, .i32⟩
  | .hbm, ⟨94, _⟩ => ⟨S680000, .i1⟩
  | .hbm, ⟨95, _⟩ => ⟨S_, .i32⟩
  | .hbm, ⟨96, _⟩ => ⟨S680000, .i32⟩
  | .hbm, ⟨97, _⟩ => ⟨S680000, .i32⟩
  | .hbm, ⟨98, _⟩ => ⟨S680000, .i32⟩
  | .hbm, ⟨99, _⟩ => ⟨S680000x1, .i32⟩
  | .hbm, ⟨100, _⟩ => ⟨S680000x47, .f32⟩
  | .hbm, ⟨101, _⟩ => ⟨S680000x1, .f32⟩
  | .hbm, ⟨102, _⟩ => ⟨S680000x47, .f32⟩
  | .hbm, ⟨103, _⟩ => ⟨S680000x47, .f32⟩
  | .hbm, ⟨104, _⟩ => ⟨S_, .f32⟩
  | .hbm, ⟨105, _⟩ => ⟨S40000x47, .f32⟩
  | .hbm, ⟨106, _⟩ => ⟨S680000x1, .i32⟩
  | .hbm, ⟨107, _⟩ => ⟨S40000x47, .f32⟩
  | .hbm, ⟨108, _⟩ => ⟨S1x47, .f32⟩
  | .hbm, ⟨109, _⟩ => ⟨S40000x47, .f32⟩
  | .hbm, ⟨110, _⟩ => ⟨S40000x47, .f32⟩
  | .hbm, ⟨111, _⟩ => ⟨S_, .f32⟩
  | .hbm, ⟨112, _⟩ => ⟨S40000, .f32⟩
  | .hbm, ⟨113, _⟩ => ⟨S_, .f32⟩
  | .hbm, ⟨114, _⟩ => ⟨S40000, .f32⟩
  | .hbm, ⟨115, _⟩ => ⟨S40000, .f32⟩
  | .hbm, ⟨116, _⟩ => ⟨S40000x1, .f32⟩
  | .hbm, ⟨117, _⟩ => ⟨S40000x47, .f32⟩
  | .hbm, ⟨118, _⟩ => ⟨S40000x47, .f32⟩
  | .hbm, ⟨119, _⟩ => ⟨S40000x47, .f32⟩
  | .hbm, ⟨120, _⟩ => ⟨S_, .f32⟩
  | .hbm, ⟨121, _⟩ => ⟨S40000, .f32⟩
  | .hbm, ⟨122, _⟩ => ⟨S40000x1, .f32⟩
  | .hbm, ⟨123, _⟩ => ⟨S40000x1, .f32⟩
  | .hbm, ⟨124, _⟩ => ⟨S40000x47, .f32⟩
  | .hbm, ⟨125, _⟩ => ⟨S40000x47, .f32⟩
  | _, _ => ⟨S40000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S680000x1_S680000x47_0_1 : S680000x1.BroadcastsInDim S680000x47 (![0, 1] : Fin 2 → Fin S680000x47.rank)
  bcast_S_S40000x47 : S_.BroadcastsInDim S40000x47 (![] : Fin 0 → Fin S40000x47.rank)
  bcast_S47_S1x47_1 : S47.BroadcastsInDim S1x47 (![1] : Fin 1 → Fin S1x47.rank)
  bcast_S1x47_S40000x47_0_1 : S1x47.BroadcastsInDim S40000x47 (![0, 1] : Fin 2 → Fin S40000x47.rank)
  reducesTo_S40000x47_S40000_d1 : S40000x47.ReducesTo [1] S40000
  h_S_ : 0 < S_.numel
  bcast_S40000_S40000x1_0 : S40000.BroadcastsInDim S40000x1 (![0] : Fin 1 → Fin S40000x1.rank)
  bcast_S40000x1_S40000x47_0_1 : S40000x1.BroadcastsInDim S40000x47 (![0, 1] : Fin 2 → Fin S40000x47.rank)
  scatter_S40000_S680000x1_S680000_n_0_0_1_wf : ScatterDims.WF S40000 S680000x1 S680000 [] [0] [0] 1
  dot_S40000x512_S512x256_S40000x256_1_0_0_1_n_n_wf : DotDims.WF S40000x512 S512x256 S40000x256 [1] [0] [0] [1] [] []
  gather_S40000_S680000x1_S680000_n_0_n_n_0_1_1_wf : GatherDims.WF S40000 S680000x1 S680000 [] [0] [] [0] [] 1 ![1]
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  dot_S40000x256_S256x47_S40000x47_1_0_0_1_n_n_wf : DotDims.WF S40000x256 S256x47 S40000x47 [1] [0] [0] [1] [] []
  gather_S40000x47_S680000x1_S680000x47_1_0_n_n_0_1_147_wf : GatherDims.WF S40000x47 S680000x1 S680000x47 [1] [0] [] [0] [] 1 ![1, 47]
  scatter_S40000x47_S680000x1_S680000x47_1_0_0_1_wf : ScatterDims.WF S40000x47 S680000x1 S680000x47 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def dot_S40000x512_S512x256_S40000x256_1_0_0_1_n_n : DotDims S40000x512 S512x256 S40000x256 where
  lhsContracting := [1]
  rhsContracting := [0]
  lhsNonContracting := [0]
  rhsNonContracting := [1]
  lhsBatch := []
  rhsBatch := []
  wf := dot_S40000x512_S512x256_S40000x256_1_0_0_1_n_n_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def dot_S40000x256_S256x47_S40000x47_1_0_0_1_n_n : DotDims S40000x256 S256x47 S40000x47 where
  lhsContracting := [1]
  rhsContracting := [0]
  lhsNonContracting := [0]
  rhsNonContracting := [1]
  lhsBatch := []
  rhsBatch := []
  wf := dot_S40000x256_S256x47_S40000x47_1_0_0_1_n_n_wf
def gather_S40000x47_S680000x1_S680000x47_1_0_n_n_0_1_147 : GatherDims S40000x47 S680000x1 S680000x47 where
  offsetDims := [1]
  collapsedSliceDims := [0]
  operandBatchingDims := []
  startIndicesBatchingDims := []
  startIndexMap := [0]
  indexVectorDim := 1
  sliceSizes := ![1, 47]
  wf := gather_S40000x47_S680000x1_S680000x47_1_0_n_n_0_1_147_wf
def scatter_S40000x47_S680000x1_S680000x47_1_0_0_1 : ScatterDims S40000x47 S680000x1 S680000x47 where
  updateWindowDims := [1]
  insertedWindowDims := [0]
  scatterDimsToOperandDims := [0]
  indexVectorDim := 1
  wf := scatter_S40000x47_S680000x1_S680000x47_1_0_0_1_wf

class Facts : Prop extends Facts₀ where

variable [Facts]
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.Layers.lean ====
/-
  The two graph-convolution layers as pure functions of arrays.

  With `s`, `d` the source and destination columns of the edge list (the 640000 given edges followed by the
  40000 self loops), the network is

    deg      = the number of edges arriving at each node (ones scatter-added at `d` into zeros),
    dinv     = deg^(-1/2) where deg > 0 and 0 elsewhere (rsqrt of max(deg, 1e-12) under a select),
    w        = dinv[s] * dinv[d], one weight per edge,
    conv h b = (the rows h[s], each scaled by its edge's weight, scatter-added at d into zeros) + b,
    out      = logSoftmax (conv (relu (conv (x W1) b1) W2) b2)   along each row.

  Every function below takes the matrix product `h` as an ARGUMENT: both programs apply these same host
  operations and differ only in how the two products are computed, so nothing here is ever opened.
  An index that may be negative is wrapped by adding 40000 before it is used in a gather, as the host does.
-/
import proofs.«136484_j57621281243368_1_alg».proof.Proof.Gen.ReferenceIdeal

noncomputable section

namespace Cert.ReferenceIdeal.Gcn

open Cert.ReferenceIdeal Cert.ReferenceIdeal.Gen Idealize.ShloMosaic

/-- The contents of a buffer of shape `s` and element type `e`. -/
abbrev Arr (F : FTy → Type) (s : Shape) (e : EltTy) : Type := (⟨s, e⟩ : BufTy).Contents (Elt F)

variable {F : FTy → Type} [FloatOps F]

/-- The source column: row 0 of the 2 x 640000 edge table, then the self loops 0 … 39999. -/
def srcOf (e : Arr F S2x640000 .i32) : Arr F S680000 .i32 :=
  concatenate S680000 0 [⟨S640000, (shapeCast _ (extractStridedSlice S1x640000 ![0, 0] e slices_S2x640000_S1x640000_0_0) shapeCasts_S1x640000_S640000)⟩, ⟨S40000, (iotaInDim S40000 32 0)⟩] concatenates_S640000_S40000_S680000_d0

/-- The destination column: row 1 of the edge table, then the self loops. -/
def dstOf (e : Arr F S2x640000 .i32) : Arr F S680000 .i32 :=
  concatenate S680000 0 [⟨S640000, (shapeCast _ (extractStridedSlice S1x640000 ![1, 0] e slices_S2x640000_S1x640000_1_0) shapeCasts_S1x640000_S640000)⟩, ⟨S40000, (iotaInDim S40000 32 0)⟩] concatenates_S640000_S40000_S680000_d0

/-- The degree of each node: a one for every edge, added at the edge's destination. -/
def degree (d : Arr F S680000 .i32) : Arr F S40000 .f32 :=
  Host.scatterAdd scatter_S40000_S680000x1_S680000_n_0_0_1 (broadcastInDim S40000 ![] bcast_S_S40000 (constant (F := F) S_ .f32 0x00000000#32)) (broadcastInDim S680000x1 ![0] bcast_S680000_S680000x1_0 d) (broadcastInDim S680000 ![] bcast_S_S680000 (constant (F := F) S_ .f32 0x3F800000#32))

/-- `deg^(-1/2)` where the degree is positive, `0` elsewhere. -/
def invSqrtDeg (d : Arr F S680000 .i32) : Arr F S40000 .f32 :=
  select (cmpf (F := F) .ogt (degree d) (broadcastInDim S40000 ![] bcast_S_S40000 (constant (F := F) S_ .f32 0x00000000#32))) (Host.rsqrt (maximumf (degree d) (broadcastInDim S40000 ![] bcast_S_S40000 (constant (F := F) S_ .f32 0x2B8CBCCC#32)))) (broadcastInDim S40000 ![] bcast_S_S40000 (id (constant (F := F) S_ .f32 0x00000000#32)))

/-- A node index made non-negative: `40000` is added where it is below `0`. -/
def wrapIdx (s : Arr F S680000 .i32) : Arr F S680000 .i32 :=
  select (cmpi .slt s (broadcastInDim S680000 ![] bcast_S_S680000 (constantI S_ 32 0#32))) (addi s (broadcastInDim S680000 ![] bcast_S_S680000 (constantI S_ 32 40000#32))) s

/-- The weight of each edge: `dinv` at its source times `dinv` at its destination. -/
def edgeNorm (s d : Arr F S680000 .i32) : Arr F S680000 .f32 :=
  mulf (Host.gather gather_S40000_S680000x1_S680000_n_0_n_n_0_1_1 (invSqrtDeg (F := F) d) (broadcastInDim S680000x1 ![0] bcast_S680000_S680000x1_0 (wrapIdx (F := F) s))) (Host.gather gather_S40000_S680000x1_S680000_n_0_n_n_0_1_1 (invSqrtDeg (F := F) d) (broadcastInDim S680000x1 ![0] bcast_S680000_S680000x1_0 (wrapIdx (F := F) d)))

/-- The first layer after the product `h = x W1`: rows gathered at the sources, scaled by the edge weights,
    summed at the destinations, plus the bias, then the positive part. -/
def layer1 (h : Arr F S40000x256 .f32) (s d : Arr F S680000 .i32) (w : Arr F S680000 .f32) (b : Arr F S256 .f32) : Arr F S40000x256 .f32 :=
  maximumf (addf (Host.scatterAdd scatter_S40000x256_S680000x1_S680000x256_1_0_0_1 (broadcastInDim S40000x256 ![] bcast_S_S40000x256 (constant (F := F) S_ .f32 0x00000000#32)) (broadcastInDim S680000x1 ![0] bcast_S680000_S680000x1_0 d) (mulf (Host.gather gather_S40000x256_S680000x1_S680000x256_1_0_n_n_0_1_1256 h (broadcastInDim S680000x1 ![0] bcast_S680000_S680000x1_0 (wrapIdx (F := F) s))) (broadcastInDim S680000x256 ![0, 1] bcast_S680000x1_S680000x256_0_1 (broadcastInDim S680000x1 ![0] bcast_S680000_S680000x1_0 w)))) (broadcastInDim S40000x256 ![0, 1] bcast_S1x256_S40000x256_0_1 (broadcastInDim S1x256 ![1] bcast_S256_S1x256_1 b))) (broadcastInDim S40000x256 ![] bcast_S_S40000x256 (constant (F := F) S_ .f32 0x00000000#32))

/-- The second layer's aggregation after the product `h = a W2`, plus the bias: the logits. -/
def logits (h : Arr F S40000x47 .f32) (s d : Arr F S680000 .i32) (w : Arr F S680000 .f32) (b : Arr F S47 .f32) : Arr F S40000x47 .f32 :=
  addf (Host.scatterAdd scatter_S40000x47_S680000x1_S680000x47_1_0_0_1 (broadcastInDim S40000x47 ![] bcast_S_S40000x47 (constant (F := F) S_ .f32 0x00000000#32)) (broadcastInDim S680000x1 ![0] bcast_S680000_S680000x1_0 d) (mulf (Host.gather gather_S40000x47_S680000x1_S680000x47_1_0_n_n_0_1_147 h (broadcastInDim S680000x1 ![0] bcast_S680000_S680000x1_0 (wrapIdx (F := F) s))) (broadcastInDim S680000x47 ![0, 1] bcast_S680000x1_S680000x47_0_1 (broadcastInDim S680000x1 ![0] bcast_S680000_S680000x1_0 w)))) (broadcastInDim S40000x47 ![0, 1] bcast_S1x47_S40000x47_0_1 (broadcastInDim S1x47 ![1] bcast_S47_S1x47_1 b))

/-- A row's entries minus the row's maximum (the maximum taken from `-inf`). -/
def shifted (z : Arr F S40000x47 .f32) : Arr F S40000x47 .f32 :=
  subf z (broadcastInDim S40000x47 ![0, 1] bcast_S40000x1_S40000x47_0_1 (broadcastInDim S40000x1 ![0] bcast_S40000_S40000x1_0 (maximumf (broadcastInDim S40000 ![] bcast_S_S40000 (constant (F := F) S_ .f32 0xFF800000#32)) (Host.reduce FloatOps.maximumf z (constant (F := F) S_ .f32 0xFF800000#32) reducesTo_S40000x47_S40000_d1 h_S_))))

/-- The row-wise log-softmax: the shifted entries minus the logarithm of the row's sum of their exponentials. -/
def logSoftmax (z : Arr F S40000x47 .f32) : Arr F S40000x47 .f32 :=
  subf (shifted (F := F) z) (broadcastInDim S40000x47 ![0, 1] bcast_S40000x1_S40000x47_0_1 (Host.log (broadcastInDim S40000x1 ![0] bcast_S40000_S40000x1_0 (Host.reduceAdd (Host.exp (shifted (F := F) z)) (constant (F := F) S_ .f32 0x00000000#32) reducesTo_S40000x47_S40000_d1 h_S_))))

/-- The second layer after the product `h = a W2`. -/
def layer2 (h : Arr F S40000x47 .f32) (s d : Arr F S680000 .i32) (w : Arr F S680000 .f32) (b : Arr F S47 .f32) : Arr F S40000x47 .f32 :=
  logSoftmax (F := F) (logits (F := F) h s d w b)

/-- The two-layer network, its two matrix products given as functions `P1`, `P2`: the columns and the edge weights
    from the edge table, then the two layers. -/
def netWith (P1 : Arr F S40000x512 .f32 → Arr F S512x256 .f32 → Arr F S40000x256 .f32)
    (P2 : Arr F S40000x256 .f32 → Arr F S256x47 .f32 → Arr F S40000x47 .f32)
    (x : Arr F S40000x512 .f32) (e : Arr F S2x640000 .i32) (w1 : Arr F S512x256 .f32) (b1 : Arr F S256 .f32)
    (w2 : Arr F S256x47 .f32) (b2 : Arr F S47 .f32) : Arr F S40000x47 .f32 :=
  layer2 (F := F) (P2 (layer1 (F := F) (P1 x w1) (srcOf (F := F) e) (dstOf (F := F) e) (edgeNorm (F := F) (srcOf (F := F) e) (dstOf (F := F) e)) b1) w2)
    (srcOf (F := F) e) (dstOf (F := F) e) (edgeNorm (F := F) (srcOf (F := F) e) (dstOf (F := F) e)) b2

end Cert.ReferenceIdeal.Gcn

end
-- ==== Proof.RefValue.lean ====
/-
  The reference's result as the network of the two layers.

  The reference's run ends with its result buffer at one long term of the six arguments. That term is the
  log-softmax layer applied to the host's product of the first layer's output with `W2`, the first layer
  applied to the host's product of `x` with `W1`; the source and destination columns and the edge weights are
  the same functions of the edge table wherever they occur (the reference computes the weights twice, once per
  layer, from the same columns). The equation is between two spellings of one term: definitions unfold, nothing
  is computed.
-/
import proofs.«136484_j57621281243368_1_alg».proof.Proof.RefRun
import proofs.«136484_j57621281243368_1_alg».proof.Proof.Layers

noncomputable section

namespace Cert.ReferenceIdeal.RefValue

open Cert.ReferenceIdeal Cert.ReferenceIdeal.Gen Cert.ReferenceIdeal.Gcn Idealize.ShloMosaic Idealize.ShloMosaic.TcCoe Idealize.SL.Sem

variable {F : FTy → Type} [FloatOps F]

/-- The host's two products. -/
def hostP1 (x : Arr F S40000x512 .f32) (w : Arr F S512x256 .f32) : Arr F S40000x256 .f32 :=
  Host.dotGeneral dot_S40000x512_S512x256_S40000x256_1_0_0_1_n_n none x w
def hostP2 (x : Arr F S40000x256 .f32) (w : Arr F S256x47 .f32) : Arr F S40000x47 .f32 :=
  Host.dotGeneral dot_S40000x256_S256x47_S40000x47_1_0_0_1_n_n none x w

set_option maxRecDepth 8192 in
/-- The reference run's result term is the network over the host's products. -/
theorem res_eq (m : (ℓ : Loc nD τ sig) → Buf (Elt F) ℓ) (c : Dev nD) :
    ValueP.res_main_v82 (F := F) m c
      = netWith (F := F) hostP1 hostP2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v82
  rfl

end Cert.ReferenceIdeal.RefValue

end
-- ==== Proof.KernelRun.lean ====
/-
  The kernel program's run, with every buffer read at the end.

  @main is nine segments: three stretches of host operations, the first product as a grid of twenty blocks of
  rows, two more stretches, the second product, two last stretches. The contents of the TensorCore's buffers at
  each boundary are a fold from the launch memory (`Gen.W0` … `Gen.W9`): a stretch applies its operations, a
  product leaves its output array at what its twenty write-backs leave and every other buffer as it found it.
  Every weakly fair execution terminates, and in its final state every unscoped buffer `b` of core `c` holds
  `Gen.W9 m ρ c b`: the launch of the segments is the generated frame's, with the last thread state read
  against the final state for ALL its buffers rather than for the six arguments only.
-/
import proofs.«136484_j57621281243368_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Payload.lean ====
/-
  The two kernel bodies' arithmetic at one entry, at the ideal values.

  Each body loads a block of rows of the left matrix and the whole right matrix, narrows both to bf16 (the
  identity on the extended reals; the second body first casts its block to its own shape, the identity too),
  and stores the `tpu.matmul` of the two into a zero accumulator. At row `p`, column `q` of the block that is
  the sum over `k` of the block's entry `(p, k)` times the right matrix's entry `(k, q)`.
-/
import proofs.«136484_j57621281243368_1_alg».proof.Proof.Gen.KernelIdeal.Skeleton
import proofs.«136484_j57621281243368_1_alg».proof.Proof.LibPlainDot
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The first body's dimension numbers are those of a plain 2000 x 512 by 512 x 256 product. -/
theorem dot0_plain : dot_S2000x512_S512x256_S2000x256_1_0_0_1_n_n = DotDims.plain 2000 512 256 := rfl

/-- The second body's dimension numbers are those of a plain 2000 x 256 by 256 x 47 product. -/
theorem dot1_plain : dot_S2000x256_S256x47_S2000x47_1_0_0_1_n_n = DotDims.plain 2000 256 47 := rfl

/-- The first body's stored value at `(p, q)`: the inner product of row `p` of the block with column `q` of the
    right matrix. -/
theorem pay0_apply (x0 : Vec Ideal S2000x512 .f32) (x1 : Vec Ideal S512x256 .f32) (p : Fin 2000) (q : Fin 256) :
    k0_pay1 (F := Ideal) x0 x1 (ix2 p q) = ∑ k : Fin 512, x0 (ix2 p k) * x1 (ix2 k q) := by
  unfold k0_pay1
  rw [dot0_plain]
  exact Cert.Lib.PlainDot.matmul_zero_apply none _ _ p q

/-- The second body's stored value at `(p, q)`, the same inner product over 256 positions. -/
theorem pay1_apply (x0 : Vec Ideal S2000x256 .f32) (x1 : Vec Ideal S256x47 .f32) (p : Fin 2000) (q : Fin 47) :
    k1_pay1 (F := Ideal) x0 x1 (ix2 p q) = ∑ k : Fin 256, x0 (ix2 p k) * x1 (ix2 k q) := by
  unfold k1_pay1
  rw [dot1_plain, shapeCast_self]
  exact Cert.Lib.PlainDot.matmul_zero_apply none _ _ p q

end Cert.KernelIdeal.Payload

end
-- ==== Proof.Region0.lean ====
/-
  The first product as one array.

  The grid has twenty points; point `t` stages rows `2000 t … 2000 t + 1999` of the left array (the node features) and
  the whole right array, and writes back the `2000 x 256` block of their product to the same rows of the output. The
  twenty blocks tile the `40000 x 256` output, so after the last point the output array is the product of the two
  whole arrays: entry `(r, q)` is the sum over `k < 512` of `left (r, k) * right (k, q)`. This holds for any
  contents `V` the region is entered with; nothing is assumed finite.
-/
import proofs.«136484_j57621281243368_1_alg».proof.Proof.Gen.KernelIdeal.Frame
import proofs.«136484_j57621281243368_1_alg».proof.Proof.Payload
import Idealize.ShloMosaic.Lib.Pipeline.Value

set_option maxRecDepth 16384

noncomputable section

open scoped BigOperators

namespace Cert.KernelIdeal.Product0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of a `40000 x 512` array with a `512 x 256` array, as the host's `dot_general` spells it. -/
def prod (x : FVec Ideal S40000x512 .f32) (w : FVec Ideal S512x256 .f32) : FVec Ideal S40000x256 .f32 :=
  Host.dotGeneral (F := Ideal) (DotDims.plain 40000 512 256) none x w

theorem prod_apply (x : FVec Ideal S40000x512 .f32) (w : FVec Ideal S512x256 .f32) (r : Fin 40000) (q : Fin 256) :
    prod x w (ix2 r q) = ∑ k : Fin 512, x (ix2 r k) * w (ix2 k q) :=
  Cert.Lib.PlainDot.dotGeneral_apply none .single x w r q

theorem hz : (![0, 0] : Fin 2 → Nat) = fun _ => 0 := funext fun a => by fin_cases a <;> rfl

/-- The printed index maps over the grid: the left and the output windows move down one block of rows per point,
    the right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Row `p` of point `t`'s block is row `2000 t + p` of the array. -/
def row (t : Fin cfg0.N) (p : Fin 2000) : Fin 40000 := ⟨t.val * 2000 + p.val, by have := t_lt t; have := p.isLt; omega⟩

/-- The left window's block at point `t`, read at `(p, k)`. -/
theorem read_left (c : Dev nD) (t : Fin cfg0.N) (p : Fin 2000) (k : Fin 512) :
    iblk0 V c 0 t (ix2 p k) = V c main_arg0 (ix2 (row t p) k) := by
  show V c main_arg0 (((cfg0.win 0).blk t).view.emb (ix2 p k)) = V c main_arg0 (ix2 (row t p) k)
  refine congrArg (V c main_arg0) ?_
  obtain ⟨e0, e1, -, -, -, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right window's block, the whole right array at every point, read at `(k, q)`. -/
theorem read_right (c : Dev nD) (t : Fin cfg0.N) (k : Fin 512) (q : Fin 256) :
    iblk0 V c 1 t (ix2 k q) = V c main_arg2 (ix2 k q) := by
  show V c main_arg2 (((cfg0.win 1).blk t).view.emb (ix2 k q)) = V c main_arg2 (ix2 k q)
  refine congrArg (V c main_arg2) ?_
  obtain ⟨-, -, e2, e3, -, -⟩ := idx_facts t
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- Entry `(p, q)` of the output window's block at point `t` sits at `(2000 t + p, q)` of the output array. -/
theorem emb_out (t : Fin cfg0.N) (p : Fin 2000) (q : Fin 256) :
    ((cfg0.win 2).blk t).view.emb (ix2 p q) = ix2 (row t p) q := by
  obtain ⟨-, -, -, -, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 256 + 1 * q.val = q.val; omega

/-- What point `t` writes back is block `t` of the product of the arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = prod (V c main_arg0) (V c main_arg2) (((cfg0.win 2).blk t).view.emb (ix2 p q))
  refine (Cert.KernelIdeal.Payload.pay0_apply _ _ p q).trans ?_
  rw [emb_out t p q, prod_apply]
  exact Finset.sum_congr rfl fun k _ => by rw [read_left V c t p k, read_right V c t k q]

/-- An index of the output array is in point `t`'s block iff each coordinate is in the block's range. -/
theorem mem_blk (t : Fin cfg0.N) (i : S40000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Every entry of the output is in the block of the point its row falls in. -/
theorem cover (i : S40000x256.Idx) :
    ∃ t : Fin cfg0.N, (cfg0.win 2).flush t = true ∧ i ∈ ((cfg0.win 2).blk t).view.set := by
  have hi0 : (i 0).val < 40000 := (i 0).isLt
  have hi1 : (i 1).val < 256 := (i 1).isLt
  have hN : (i 0).val / 2000 < cfg0.N := lt_of_lt_of_eq (by omega : (i 0).val / 2000 < 20) N_0.symm
  refine ⟨⟨(i 0).val / 2000, hN⟩, flush0_2 _, ?_⟩
  obtain ⟨-, -, -, -, e4, e5⟩ := idx_facts ⟨(i 0).val / 2000, hN⟩
  have e4' : win0_2.index ⟨(i 0).val / 2000, hN⟩ (0 : Fin 2) = (i 0).val / 2000 := e4
  rw [mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 256 ≤ (i 1).val ∧ (i 1).val < win0_2.index ⟨(i 0).val / 2000, hN⟩ (1 : Fin 2) * 256 + 256; omega

/-- After the region the output array is the product of the two arrays it was entered with. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Product0

end
-- ==== Proof.Region1.lean ====
/-
  The second product as one array.

  The grid has twenty points; point `t` stages rows `2000 t … 2000 t + 1999` of the left array (the first layer's output) and
  the whole right array, and writes back the `2000 x 47` block of their product to the same rows of the output. The
  twenty blocks tile the `40000 x 47` output, so after the last point the output array is the product of the two
  whole arrays: entry `(r, q)` is the sum over `k < 256` of `left (r, k) * right (k, q)`. This holds for any
  contents `V` the region is entered with; nothing is assumed finite.
-/
import proofs.«136484_j57621281243368_1_alg».proof.Proof.Gen.KernelIdeal.Frame
import proofs.«136484_j57621281243368_1_alg».proof.Proof.Payload
import Idealize.ShloMosaic.Lib.Pipeline.Value

set_option maxRecDepth 16384

noncomputable section

open scoped BigOperators

namespace Cert.KernelIdeal.Product1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of a `40000 x 256` array with a `256 x 47` array, as the host's `dot_general` spells it. -/
def prod (x : FVec Ideal S40000x256 .f32) (w : FVec Ideal S256x47 .f32) : FVec Ideal S40000x47 .f32 :=
  Host.dotGeneral (F := Ideal) (DotDims.plain 40000 256 47) none x w

theorem prod_apply (x : FVec Ideal S40000x256 .f32) (w : FVec Ideal S256x47 .f32) (r : Fin 40000) (q : Fin 47) :
    prod x w (ix2 r q) = ∑ k : Fin 256, x (ix2 r k) * w (ix2 k q) :=
  Cert.Lib.PlainDot.dotGeneral_apply none .single x w r q

theorem hz : (![0, 0] : Fin 2 → Nat) = fun _ => 0 := funext fun a => by fin_cases a <;> rfl

/-- The printed index maps over the grid: the left and the output windows move down one block of rows per point,
    the right window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 20 := lt_of_lt_of_eq t.isLt N_1

/-- Row `p` of point `t`'s block is row `2000 t + p` of the array. -/
def row (t : Fin cfg1.N) (p : Fin 2000) : Fin 40000 := ⟨t.val * 2000 + p.val, by have := t_lt t; have := p.isLt; omega⟩

/-- The left window's block at point `t`, read at `(p, k)`. -/
theorem read_left (c : Dev nD) (t : Fin cfg1.N) (p : Fin 2000) (k : Fin 256) :
    iblk1 V c 0 t (ix2 p k) = V c main_v49 (ix2 (row t p) k) := by
  show V c main_v49 (((cfg1.win 0).blk t).view.emb (ix2 p k)) = V c main_v49 (ix2 (row t p) k)
  refine congrArg (V c main_v49) ?_
  obtain ⟨e0, e1, -, -, -, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- The right window's block, the whole right array at every point, read at `(k, q)`. -/
theorem read_right (c : Dev nD) (t : Fin cfg1.N) (k : Fin 256) (q : Fin 47) :
    iblk1 V c 1 t (ix2 k q) = V c main_arg4 (ix2 k q) := by
  show V c main_arg4 (((cfg1.win 1).blk t).view.emb (ix2 k q)) = V c main_arg4 (ix2 k q)
  refine congrArg (V c main_arg4) ?_
  obtain ⟨-, -, e2, e3, -, -⟩ := idx_facts t
  funext a; apply Fin.ext
  match a with
  | ⟨0, _⟩ => show win1_1.index t (0 : Fin 2) * 256 + 1 * k.val = k.val; omega
  | ⟨1, _⟩ => show win1_1.index t (1 : Fin 2) * 47 + 1 * q.val = q.val; omega

/-- Entry `(p, q)` of the output window's block at point `t` sits at `(2000 t + p, q)` of the output array. -/
theorem emb_out (t : Fin cfg1.N) (p : Fin 2000) (q : Fin 47) :
    ((cfg1.win 2).blk t).view.emb (ix2 p q) = ix2 (row t p) q := by
  obtain ⟨-, -, -, -, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 47 + 1 * q.val = q.val; omega

/-- What point `t` writes back is block `t` of the product of the arrays as the region finds them. -/
theorem flushed_eq (c : Dev nD) (t : Fin cfg1.N) :
    (dat1 V c).flushed 2 t = ((cfg1.win 2).blk t).view.read (Elt Ideal) (prod (V c main_v49) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x47) hz]
  refine funext fun (j : S2000x47.Idx) => ?_
  obtain ⟨p, q, rfl⟩ : ∃ (p : Fin 2000) (q : Fin 47), j = ix2 p q := ⟨j 0, j 1, eq_ix2 j⟩
  show k1_pay1 (F := Ideal) (iblk1 V c 0 t) (iblk1 V c 1 t) (ix2 p q)
    = prod (V c main_v49) (V c main_arg4) (((cfg1.win 2).blk t).view.emb (ix2 p q))
  refine (Cert.KernelIdeal.Payload.pay1_apply _ _ p q).trans ?_
  rw [emb_out t p q, prod_apply]
  exact Finset.sum_congr rfl fun k _ => by rw [read_left V c t p k, read_right V c t k q]

/-- An index of the output array is in point `t`'s block iff each coordinate is in the block's range. -/
theorem mem_blk (t : Fin cfg1.N) (i : S40000x47.Idx) :
    i ∈ ((cfg1.win 2).blk t).view.set ↔ ∀ a : Fin 2, win1_2.index t a * S2000x47.size a ≤ (i a).val ∧ (i a).val < win1_2.index t a * S2000x47.size a + S2000x47.size a := by
  show i ∈ ((View.whole main_v50).slice (win1_2.rect t)).set ↔ _
  rw [View.set_slice_whole, Rect.mem_set_unit]
  exact Iff.rfl

/-- Every entry of the output is in the block of the point its row falls in. -/
theorem cover (i : S40000x47.Idx) :
    ∃ t : Fin cfg1.N, (cfg1.win 2).flush t = true ∧ i ∈ ((cfg1.win 2).blk t).view.set := by
  have hi0 : (i 0).val < 40000 := (i 0).isLt
  have hi1 : (i 1).val < 47 := (i 1).isLt
  have hN : (i 0).val / 2000 < cfg1.N := lt_of_lt_of_eq (by omega : (i 0).val / 2000 < 20) N_1.symm
  refine ⟨⟨(i 0).val / 2000, hN⟩, flush1_2 _, ?_⟩
  obtain ⟨-, -, -, -, e4, e5⟩ := idx_facts ⟨(i 0).val / 2000, hN⟩
  have e4' : win1_2.index ⟨(i 0).val / 2000, hN⟩ (0 : Fin 2) = (i 0).val / 2000 := e4
  rw [mem_blk]
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; omega
  | ⟨1, _⟩ => show win1_2.index ⟨(i 0).val / 2000, hN⟩ (1 : Fin 2) * 47 ≤ (i 1).val ∧ (i 1).val < win1_2.index ⟨(i 0).val / 2000, hN⟩ (1 : Fin 2) * 47 + 47; omega

/-- After the region the output array is the product of the two arrays it was entered with. -/
theorem final (c : Dev nD) : (dat1 V c).arrAt 2 cfg1.N = prod (V c main_v49) (V c main_arg4) :=
  (dat1 V c).arrAt_eq_of_cover 2 (prod (V c main_v49) (V c main_arg4)) (fun t _ => flushed_eq V c t) cover

end Cert.KernelIdeal.Product1

end
-- ==== Proof.HostStages.lean ====
/-
  The kernel program's three stretches of host operations, read back.

  Before the first product the host builds, from the edge table alone, the source and destination columns and
  the edge weights; between the products it gathers, scales, scatter-adds, adds the bias and takes the positive
  part; after the second product it does the same aggregation with the second bias and takes the row-wise
  log-softmax. Each lemma reads one buffer after a stretch from ANY contents `X` the stretch starts from, as a
  layer function (the ones the reference is written in) of the contents of the buffers the stretch reads — or,
  for a buffer the stretch does not write, as what was there.
-/
import proofs.«136484_j57621281243368_1_alg».proof.Proof.Gen.KernelIdeal.Launch
import proofs.«136484_j57621281243368_1_alg».proof.Proof.Layers
import Idealize.ShloMosaic.Lib.StableHlo.Run
import proofs.«136484_j57621281243368_1_alg».proof.Proof.LibAfter
import proofs.«136484_j57621281243368_1_alg».proof.Proof.LibTyped

set_option maxRecDepth 16384

noncomputable section

namespace Cert.KernelIdeal.Stretches

open Cert.KernelIdeal Cert.KernelIdeal.Gen Idealize.ShloMosaic Idealize.ShloMosaic.TcCoe Idealize.ShloMosaic.StableHlo
open Cert.ReferenceIdeal.Gcn

variable {F : FTy → Type} [FloatOps F]
variable (X : Valuation τ sig (Elt F))

/-- The contents after the stretch before the first product (the host operations, the outlined `where`, the
    operations after it), from contents `X`. -/
abbrev head : Valuation τ sig (Elt F) := after hostOps0_2 (after hostOps0_1 (after hostOps0 X))
/-- The contents after the stretch between the products (the host operations, then the outlined `relu`). -/
abbrev middle : Valuation τ sig (Elt F) := after hostOps1_1 (after hostOps1 X)
/-- The contents after the last stretch (the host operations, then the outlined `log_softmax`). -/
abbrev tail : Valuation τ sig (Elt F) := after hostOps2_1 (after hostOps2 X)

/-! ## Before the first product -/

set_option maxHeartbeats 4000000 in
theorem head_src : head X (Proc.devRef .tc main_v3) = srcOf (F := F) (X (Proc.devRef .tc main_arg1)) := by
  read_fold <;> rfl

set_option maxHeartbeats 4000000 in
theorem head_dst : head X (Proc.devRef .tc main_v6) = dstOf (F := F) (X (Proc.devRef .tc main_arg1)) := by
  read_fold <;> rfl

set_option maxHeartbeats 8000000 in
theorem head_norm : head X (Proc.devRef .tc main_v31)
    = edgeNorm (F := F) (srcOf (F := F) (X (Proc.devRef .tc main_arg1))) (dstOf (F := F) (X (Proc.devRef .tc main_arg1))) := by
  read_fold <;> rfl

set_option maxHeartbeats 4000000 in
theorem head_arg0 : head X (Proc.devRef .tc main_arg0) = X (Proc.devRef .tc main_arg0) := by read_fold
set_option maxHeartbeats 4000000 in
theorem head_arg2 : head X (Proc.devRef .tc main_arg2) = X (Proc.devRef .tc main_arg2) := by read_fold
set_option maxHeartbeats 4000000 in
theorem head_arg3 : head X (Proc.devRef .tc main_arg3) = X (Proc.devRef .tc main_arg3) := by read_fold
set_option maxHeartbeats 4000000 in
theorem head_arg4 : head X (Proc.devRef .tc main_arg4) = X (Proc.devRef .tc main_arg4) := by read_fold
set_option maxHeartbeats 4000000 in
theorem head_arg5 : head X (Proc.devRef .tc main_arg5) = X (Proc.devRef .tc main_arg5) := by read_fold

/-! ## Between the products -/

set_option maxHeartbeats 8000000 in
theorem middle_act : middle X (Proc.devRef .tc main_v49)
    = layer1 (F := F) (X (Proc.devRef .tc main_v32)) (X (Proc.devRef .tc main_v3)) (X (Proc.devRef .tc main_v6))
        (X (Proc.devRef .tc main_v31)) (X (Proc.devRef .tc main_arg3)) := by
  read_fold <;> rfl

set_option maxHeartbeats 4000000 in
theorem middle_v3 : middle X (Proc.devRef .tc main_v3) = X (Proc.devRef .tc main_v3) := by read_fold
set_option maxHeartbeats 4000000 in
theorem middle_v6 : middle X (Proc.devRef .tc main_v6) = X (Proc.devRef .tc main_v6) := by read_fold
set_option maxHeartbeats 4000000 in
theorem middle_v31 : middle X (Proc.devRef .tc main_v31) = X (Proc.devRef .tc main_v31) := by read_fold
set_option maxHeartbeats 4000000 in
theorem middle_arg4 : middle X (Proc.devRef .tc main_arg4) = X (Proc.devRef .tc main_arg4) := by read_fold
set_option maxHeartbeats 4000000 in
theorem middle_arg5 : middle X (Proc.devRef .tc main_arg5) = X (Proc.devRef .tc main_arg5) := by read_fold

/-! ## After the second product -/

set_option maxHeartbeats 8000000 in
/-- The logits: the second aggregation plus the second bias. -/
theorem tail_logits : after hostOps2 X (Proc.devRef .tc main_v66)
    = logits (F := F) (X (Proc.devRef .tc main_v50)) (X (Proc.devRef .tc main_v3)) (X (Proc.devRef .tc main_v6))
        (X (Proc.devRef .tc main_v31)) (X (Proc.devRef .tc main_arg5)) := by
  read_fold <;> rfl

set_option maxHeartbeats 8000000 in
/-- The outlined log-softmax, from any contents: the row-wise log-softmax of the logits' buffer. -/
theorem tail_softmax : after hostOps2_1 X (Proc.devRef .tc main_v67) = logSoftmax (F := F) (X (Proc.devRef .tc main_v66)) := by
  read_fold
  -- each intermediate value of the outlined function is written at a typed reference and read back: drop the pairs
  simp only [Cert.Lib.Typed.ofBuf_toBuf]
  rfl

theorem tail_out : tail X (Proc.devRef .tc main_v67)
    = layer2 (F := F) (X (Proc.devRef .tc main_v50)) (X (Proc.devRef .tc main_v3)) (X (Proc.devRef .tc main_v6))
        (X (Proc.devRef .tc main_v31)) (X (Proc.devRef .tc main_arg5)) :=
  (tail_softmax (after hostOps2 X)).trans (congrArg (logSoftmax (F := F)) (tail_logits X))

end Cert.KernelIdeal.Stretches

end
-- ==== Proof.KernelValue.lean ====
/-
  The kernel program's result as the network of the two layers.

  Reading the last boundary's contents back through @main: the result buffer is the log-softmax layer of the
  second product's output array; that array is the product of the first layer's output with `W2` (the twenty
  blocks of the second grid tile it); the first layer's output is the layer function of the first product's output
  array, which is the product of `x` with `W1`. The columns and edge weights are computed once, before the first
  product, and no later operation or region writes them or an argument, so each use reads the same function of
  the edge table.
-/
import proofs.«136484_j57621281243368_1_alg».proof.Proof.KernelRun
import proofs.«136484_j57621281243368_1_alg».proof.Proof.Region0
import proofs.«136484_j57621281243368_1_alg».proof.Proof.Region1
import proofs.«136484_j57621281243368_1_alg».proof.Proof.HostStages

set_option maxRecDepth 16384

noncomputable section

namespace Cert.KernelIdeal.Net

open Cert.KernelIdeal Cert.KernelIdeal.Gen Cert.KernelIdeal.Stretches Cert.ReferenceIdeal.Gcn
open Idealize.ShloMosaic Idealize.ShloMosaic.TcCoe Idealize.SL.Sem

variable (m : (ℓ : Loc nD τ sig) → Buf (Elt Ideal) ℓ) (ρ : Dev nD → PrngReg) (c : Dev nD)

/-! ## The columns, the weights and the arguments, wherever they are read -/

theorem src3 : W3 m ρ c (Proc.devRef .tc main_v3) = srcOf (F := Ideal) (m ((c : Thread nD τ).loc main_arg1)) := head_src (W0 m ρ c)
theorem dst3 : W3 m ρ c (Proc.devRef .tc main_v6) = dstOf (F := Ideal) (m ((c : Thread nD τ).loc main_arg1)) := head_dst (W0 m ρ c)
theorem norm3 : W3 m ρ c (Proc.devRef .tc main_v31)
    = edgeNorm (F := Ideal) (srcOf (F := Ideal) (m ((c : Thread nD τ).loc main_arg1))) (dstOf (F := Ideal) (m ((c : Thread nD τ).loc main_arg1))) := head_norm (W0 m ρ c)
theorem x3 : W3 m ρ c (Proc.devRef .tc main_arg0) = (m ((c : Thread nD τ).loc main_arg0)) := head_arg0 (W0 m ρ c)
theorem w1_3 : W3 m ρ c (Proc.devRef .tc main_arg2) = (m ((c : Thread nD τ).loc main_arg2)) := head_arg2 (W0 m ρ c)
theorem b1_3 : W3 m ρ c (Proc.devRef .tc main_arg3) = (m ((c : Thread nD τ).loc main_arg3)) := head_arg3 (W0 m ρ c)
theorem w2_3 : W3 m ρ c (Proc.devRef .tc main_arg4) = (m ((c : Thread nD τ).loc main_arg4)) := head_arg4 (W0 m ρ c)
theorem b2_3 : W3 m ρ c (Proc.devRef .tc main_arg5) = (m ((c : Thread nD τ).loc main_arg5)) := head_arg5 (W0 m ρ c)

/-- After the first product: its output array is the product; the rest is as it was entered. -/
theorem h4 : W4 m ρ c (Proc.devRef .tc main_v32) = Product0.prod (m ((c : Thread nD τ).loc main_arg0)) (m ((c : Thread nD τ).loc main_arg2)) := by
  refine ((W4_arr m ρ c 2).trans (Product0.final (V3 m ρ) c)).trans ?_
  show Product0.prod (W3 m ρ c (Proc.devRef .tc main_arg0)) (W3 m ρ c (Proc.devRef .tc main_arg2)) = _
  rw [x3, w1_3]
theorem src4 : W4 m ρ c (Proc.devRef .tc main_v3) = srcOf (F := Ideal) (m ((c : Thread nD τ).loc main_arg1)) :=
  (W4_of_ne m ρ c main_v3 (by decide)).trans (src3 m ρ c)
theorem dst4 : W4 m ρ c (Proc.devRef .tc main_v6) = dstOf (F := Ideal) (m ((c : Thread nD τ).loc main_arg1)) :=
  (W4_of_ne m ρ c main_v6 (by decide)).trans (dst3 m ρ c)
theorem norm4 : W4 m ρ c (Proc.devRef .tc main_v31)
    = edgeNorm (F := Ideal) (srcOf (F := Ideal) (m ((c : Thread nD τ).loc main_arg1))) (dstOf (F := Ideal) (m ((c : Thread nD τ).loc main_arg1))) :=
  (W4_of_ne m ρ c main_v31 (by decide)).trans (norm3 m ρ c)
theorem b1_4 : W4 m ρ c (Proc.devRef .tc main_arg3) = (m ((c : Thread nD τ).loc main_arg3)) :=
  (W4_of_ne m ρ c main_arg3 (by decide)).trans (b1_3 m ρ c)
theorem w2_4 : W4 m ρ c (Proc.devRef .tc main_arg4) = (m ((c : Thread nD τ).loc main_arg4)) :=
  (W4_of_ne m ρ c main_arg4 (by decide)).trans (w2_3 m ρ c)
theorem b2_4 : W4 m ρ c (Proc.devRef .tc main_arg5) = (m ((c : Thread nD τ).loc main_arg5)) :=
  (W4_of_ne m ρ c main_arg5 (by decide)).trans (b2_3 m ρ c)

/-- The first layer's output, at the second product's entry. -/
theorem act6 : W6 m ρ c (Proc.devRef .tc main_v49)
    = layer1 (F := Ideal) (Product0.prod (m ((c : Thread nD τ).loc main_arg0)) (m ((c : Thread nD τ).loc main_arg2))) (srcOf (F := Ideal) (m ((c : Thread nD τ).loc main_arg1)))
        (dstOf (F := Ideal) (m ((c : Thread nD τ).loc main_arg1)))
        (edgeNorm (F := Ideal) (srcOf (F := Ideal) (m ((c : Thread nD τ).loc main_arg1))) (dstOf (F := Ideal) (m ((c : Thread nD τ).loc main_arg1)))) (m ((c : Thread nD τ).loc main_arg3)) := by
  refine (middle_act (W4 m ρ c)).trans ?_
  rw [h4, src4, dst4, norm4, b1_4]
theorem src6 : W6 m ρ c (Proc.devRef .tc main_v3) = srcOf (F := Ideal) (m ((c : Thread nD τ).loc main_arg1)) :=
  (middle_v3 (W4 m ρ c)).trans (src4 m ρ c)
theorem dst6 : W6 m ρ c (Proc.devRef .tc main_v6) = dstOf (F := Ideal) (m ((c : Thread nD τ).loc main_arg1)) :=
  (middle_v6 (W4 m ρ c)).trans (dst4 m ρ c)
theorem norm6 : W6 m ρ c (Proc.devRef .tc main_v31)
    = edgeNorm (F := Ideal) (srcOf (F := Ideal) (m ((c : Thread nD τ).loc main_arg1))) (dstOf (F := Ideal) (m ((c : Thread nD τ).loc main_arg1))) :=
  (middle_v31 (W4 m ρ c)).trans (norm4 m ρ c)
theorem w2_6 : W6 m ρ c (Proc.devRef .tc main_arg4) = (m ((c : Thread nD τ).loc main_arg4)) :=
  (middle_arg4 (W4 m ρ c)).trans (w2_4 m ρ c)
theorem b2_6 : W6 m ρ c (Proc.devRef .tc main_arg5) = (m ((c : Thread nD τ).loc main_arg5)) :=
  (middle_arg5 (W4 m ρ c)).trans (b2_4 m ρ c)

/-- After the second product: its output array is the product of the first layer's output with `W2`. -/
theorem h7 : W7 m ρ c (Proc.devRef .tc main_v50)
    = Product1.prod (W6 m ρ c (Proc.devRef .tc main_v49)) (m ((c : Thread nD τ).loc main_arg4)) := by
  refine ((W7_arr m ρ c 2).trans (Product1.final (V6 m ρ) c)).trans ?_
  show Product1.prod (W6 m ρ c (Proc.devRef .tc main_v49)) (W6 m ρ c (Proc.devRef .tc main_arg4)) = _
  rw [w2_6]
theorem src7 : W7 m ρ c (Proc.devRef .tc main_v3) = srcOf (F := Ideal) (m ((c : Thread nD τ).loc main_arg1)) :=
  (W7_of_ne m ρ c main_v3 (by decide)).trans (src6 m ρ c)
theorem dst7 : W7 m ρ c (Proc.devRef .tc main_v6) = dstOf (F := Ideal) (m ((c : Thread nD τ).loc main_arg1)) :=
  (W7_of_ne m ρ c main_v6 (by decide)).trans (dst6 m ρ c)
theorem norm7 : W7 m ρ c (Proc.devRef .tc main_v31)
    = edgeNorm (F := Ideal) (srcOf (F := Ideal) (m ((c : Thread nD τ).loc main_arg1))) (dstOf (F := Ideal) (m ((c : Thread nD τ).loc main_arg1))) :=
  (W7_of_ne m ρ c main_v31 (by decide)).trans (norm6 m ρ c)
theorem b2_7 : W7 m ρ c (Proc.devRef .tc main_arg5) = (m ((c : Thread nD τ).loc main_arg5)) :=
  (W7_of_ne m ρ c main_arg5 (by decide)).trans (b2_6 m ρ c)

/-- The result buffer at the end of @main is the network over the two grid products. -/
theorem out_eq : W9 m ρ c (Proc.devRef .tc main_v67)
    = netWith (F := Ideal) Product0.prod Product1.prod (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_out (W7 m ρ c)).trans ?_
  rw [h7, act6, src7, dst7, norm7, b2_7]
  rfl

end Cert.KernelIdeal.Net

end
-- ==== Proof.lean ====
/-
  A two-layer graph convolution network on 40000 nodes: the kernel program against its reference.

  Both programs build, from the 2 x 640000 edge table with the 40000 self loops appended, the source and
  destination columns `s`, `d`, the degree `deg` (ones scatter-added at `d`), `dinv = deg^(-1/2)` where
  `deg > 0` and `0` elsewhere, and one weight `dinv[s] * dinv[d]` per edge; then

      out = logSoftmax (conv (relu (conv (x · W1) b1) · W2) b2),
      conv h b = (rows h[s] scaled by the edge weights, scatter-added at d) + b,

  with the log-softmax taken along each row of 47 logits. The host operations are the same in both programs,
  literal for literal. They differ in the two matrix products: the reference calls `dot_general` on the whole
  arrays, the kernel program runs each product on a grid of twenty points, point `t` multiplying rows
  `2000 t … 2000 t + 1999` of the left array (narrowed to bf16, which is the identity on the extended reals)
  with the whole right array into a zero accumulator. Entry `(r, q)` of either is the sum over `k` of
  `left (r, k) * right (k, q)`, and the twenty blocks tile the output, so each grid product IS the host's
  product of the whole arrays — as arrays of extended reals, with no appeal to finiteness: the precondition is
  never opened. (The reference computes the edge weights once per layer; both computations are the same
  function of the same columns.)

  The three frames: the two kernel programs' are the generated frame certificates; the reference's is its run
  with the result dropped. The idealization rewrote nothing, so `preserves` is `True`. For `algebraic` the
  kernel program's run is read at every buffer of the last boundary (Proof/KernelRun.lean), the result buffer
  walked back through the three host stretches and the two regions to the arguments (Proof/KernelValue.lean),
  and set beside the reference's run (Proof/RefValue.lean).
-/
import proofs.«136484_j57621281243368_1_alg».proof.Defs
import proofs.«136484_j57621281243368_1_alg».proof.Proof.Gen.Kernel
import proofs.«136484_j57621281243368_1_alg».proof.Proof.Gen.Kernel.Frame
import proofs.«136484_j57621281243368_1_alg».proof.Proof.Gen.KernelIdeal
import proofs.«136484_j57621281243368_1_alg».proof.Proof.Gen.KernelIdeal.Frame
import proofs.«136484_j57621281243368_1_alg».proof.Proof.Gen.ReferenceIdeal
import proofs.«136484_j57621281243368_1_alg».proof.Proof.Gen.Pre_finite_inputs
import proofs.«136484_j57621281243368_1_alg».proof.Proof.RefRun
import proofs.«136484_j57621281243368_1_alg».proof.Proof.RefValue
import proofs.«136484_j57621281243368_1_alg».proof.Proof.KernelRun
import proofs.«136484_j57621281243368_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.Gcn

/-- The kernel program at the word level runs and leaves its arguments: the generated frame certificate. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The grid products are the host's products: each is the host's `dot_general` of the whole arrays, under
    dimension numbers that are the reference's own. -/
theorem products_eq :
    netWith (F := Ideal) Cert.KernelIdeal.Product0.prod Cert.KernelIdeal.Product1.prod
      = netWith (F := Ideal) Cert.ReferenceIdeal.RefValue.hostP1 Cert.ReferenceIdeal.RefValue.hostP2 := rfl

/-- From memories agreeing on the six arguments both idealized programs end with the network's value in their
    result buffers: the kernel program over its two grid products, the reference over the host's. -/
theorem algebraic : Cert.algebraic_KernelIdeal_ReferenceIdeal := by
  intro m ρ m' ρ' _ hagree
  refine ⟨fun c => netWith (F := Ideal) Cert.KernelIdeal.Product0.prod Cert.KernelIdeal.Product1.prod
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v67 (by decide))).trans (Cert.KernelIdeal.Net.out_eq m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c)⟩
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2, ← products_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
